-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x1024 : Shape := ⟨3, ![128, 64, 1024]⟩
abbrev S128x1024 : Shape := ⟨2, ![128, 1024]⟩
abbrev S1024x1024 : Shape := ⟨2, ![1024, 1024]⟩
abbrev S_ : Shape := ⟨0, ![]⟩

class Facts : Prop where
  bcast_S_S128x64x1024 : S_.BroadcastsInDim S128x64x1024 (![] : Fin 0 → Fin S128x64x1024.rank)
  reducesTo_S128x64x1024_S_d0_1_2 : S128x64x1024.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S128x64x1024 .f32) (main_arg1 : FVec F S128x1024 .f32) (main_arg2 : FVec F S1024x1024 .f32) : IVec S_ 1 :=
  let main_v0 : FVec F S128x64x1024 .f32 := Host.absf main_arg0
  let main_cst : FVec F S_ .f32 := constant S_ .f32 0x7F800000#32
  let main_v1 : FVec F S128x64x1024 .f32 := broadcastInDim S128x64x1024 ![] bcast_S_S128x64x1024 main_cst
  let main_v2 : IVec S128x64x1024 1 := cmpf .olt main_v0 main_v1
  let main_c : IVec S_ 1 := constantI S_ 1 1#1
  let main_v3 : IVec S_ 1 := (fun x v => Host.reduce IntOp.andi x v reducesTo_S128x64x1024_S_d0_1_2 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S128x64x1024 : Shape := ⟨3, ![128, 64, 1024]⟩
abbrev S128x1024 : Shape := ⟨2, ![128, 1024]⟩
abbrev S1024x1024 : Shape := ⟨2, ![1024, 1024]⟩
abbrev S16x64x1024 : Shape := ⟨3, ![16, 64, 1024]⟩
abbrev S16x1024 : Shape := ⟨2, ![16, 1024]⟩

abbrev nBuf : Space → Nat
  | .hbm => 4
  | .vmem => 7
  | .smem => 0
  | _ => 0

abbrev bufTy : (tb : Table) → Fin (tcTables nBuf tb) → BufTy
  | .hbm, ⟨0, _⟩ => ⟨S128x64x1024, .f32⟩
  | .hbm, ⟨1, _⟩ => ⟨S128x1024, .f32⟩
  | .hbm, ⟨2, _⟩ => ⟨S1024x1024, .f32⟩
  | .hbm, ⟨3, _⟩ => ⟨S128x1024, .f32⟩
  | .local _ .vmem, ⟨0, _⟩ => ⟨S16x64x1024, .f32⟩
  | .local _ .vmem, ⟨1, _⟩ => ⟨S16x64x1024, .f32⟩
  | .local _ .vmem, ⟨2, _⟩ => ⟨S16x1024, .f32⟩
  | .local _ .vmem, ⟨3, _⟩ => ⟨S16x1024, .f32⟩
  | .local _ .vmem, ⟨4, _⟩ => ⟨S1024x1024, .f32⟩
  | .local _ .vmem, ⟨5, _⟩ => ⟨S16x1024, .f32⟩
  | .local _ .vmem, ⟨6, _⟩ => ⟨S16x1024, .f32⟩
  | _, _ => ⟨S128x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S16x64x1024_S16x64x1024_0_0_0 : ∀ a, (![0, 0, 0] : Fin 3 → Nat) a + S16x64x1024.size a ≤ S16x64x1024.size a
  h_S16x64x1024 : 0 < S16x64x1024.numel
  reduces_S16x64x1024_S16x1024 : S16x64x1024.Reduces [1] S16x1024
  inb_S16x1024_S16x1024_0_0 : ∀ a, (![0, 0] : Fin 2 → Nat) a + S16x1024.size a ≤ S16x1024.size a
  h_S16x1024 : 0 < S16x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  dot_S16x1024_S1024x1024_S16x1024_1_1_0_0_n_n_wf : DotDims.WF S16x1024 S1024x1024 S16x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x1024.size a ≤ S128x64x1024.size a
  hwx0_0 : ∀ i : grid0.Coords, EltTy.bits .f32 = 32 ∨ (Rect.block (s := S128x64x1024) S16x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S128x1024.size a
  hwx0_1 : ∀ i : grid0.Coords, EltTy.bits .f32 = 32 ∨ (Rect.block (s := S128x1024) S16x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S128x1024.size a
  hwx0_3 : ∀ i : grid0.Coords, EltTy.bits .f32 = 32 ∨ (Rect.block (s := S128x1024) S16x1024.size (cc0_transform_3 i) (hinb0_3 i)).WholeWords (EltTy.packing .f32)

variable [Facts₀]

def dot_S16x1024_S1024x1024_S16x1024_1_1_0_0_n_n : DotDims S16x1024 S1024x1024 S16x1024 where
  lhsContracting := [1]
  rhsContracting := [1]
  lhsNonContracting := [0]
  rhsNonContracting := [0]
  lhsBatch := []
  rhsBatch := []
  wf := dot_S16x1024_S1024x1024_S16x1024_1_1_0_0_n_n_wf

abbrev win0_0 : Pipeline.Window sig grid0 :=
  Pipeline.Window.ofSpec (Memref.whole main_arg0) S16x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S16x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x64x1024 : Shape := ⟨3, ![128, 64, 1024]⟩
abbrev S128x1024 : Shape := ⟨2, ![128, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S128x64x1024, .f32⟩
  | .hbm, ⟨1, _⟩ => ⟨S128x1024, .f32⟩
  | .hbm, ⟨2, _⟩ => ⟨S1024x1024, .f32⟩
  | .hbm, ⟨3, _⟩ => ⟨S_, .f32⟩
  | .hbm, ⟨4, _⟩ => ⟨S128x1024, .f32⟩
  | .hbm, ⟨5, _⟩ => ⟨S128x1024, .f32⟩
  | .hbm, ⟨6, _⟩ => ⟨S128x1024, .f32⟩
  | _, _ => ⟨S128x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  reducesTo_S128x64x1024_S128x1024_d1 : S128x64x1024.ReducesTo [1] S128x1024
  h_S_ : 0 < S_.numel
  dot_S128x1024_S1024x1024_S128x1024_1_1_0_0_n_n_wf : DotDims.WF S128x1024 S1024x1024 S128x1024 [1] [1] [0] [0] [] []

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf

class Facts : Prop extends Facts₀ where

variable [Facts]
-- ==== Proof.FusedSpec.lean ====
/-
  The function both programs compute, on the extended reals.

  For a batch row `b < 128` and a cloth channel `i < 1024`,

      fused cloth body f (b, i) = (∑ k < 64, cloth (b, k, i)) · (∑ j < 1024, body (b, j) · f (i, j)) :

  the cloth latents of row `b` summed over their 64 samples at channel `i`, times the `i`-th entry of the
  matrix–vector product of `f` with row `b` of the body latents. Both sums are finite sums in the commutative
  monoid of extended reals, so neither the order of their terms nor how they are grouped matters, and nothing about
  the finiteness of the entries is needed to compare two programs that both compute this product of two sums.
-/
import Idealize.ShloMosaic.PureOps.Ideal
import Idealize.ShloMosaic.Lib.ValueIdx

noncomputable section

namespace Cert.Fused

open Idealize.ShloMosaic Idealize.ShloMosaic.ValueIdx

/-- The value at row `b`, channel `i`: the sample sum of the cloth latents times the `i`-th entry of `f · body_b`. -/
def fusedAt (cloth : (⟨3, ![128, 64, 1024]⟩ : Shape).Idx → EReal) (body : (⟨2, ![128, 1024]⟩ : Shape).Idx → EReal)
    (f : (⟨2, ![1024, 1024]⟩ : Shape).Idx → EReal) (b : Fin 128) (i : Fin 1024) : EReal :=
  (∑ k : Fin 64, cloth (ix3 b k i)) * ∑ j : Fin 1024, body (ix2 b j) * f (ix2 i j)

/-- The whole [128, 1024] result as one function of the three argument arrays. -/
def fused (cloth : (⟨3, ![128, 64, 1024]⟩ : Shape).Idx → EReal) (body : (⟨2, ![128, 1024]⟩ : Shape).Idx → EReal)
    (f : (⟨2, ![1024, 1024]⟩ : Shape).Idx → EReal) : (⟨2, ![128, 1024]⟩ : Shape).Idx → EReal :=
  fun y => fusedAt cloth body f (y 0) (y 1)

theorem fused_apply (cloth : (⟨3, ![128, 64, 1024]⟩ : Shape).Idx → EReal) (body : (⟨2, ![128, 1024]⟩ : Shape).Idx → EReal)
    (f : (⟨2, ![1024, 1024]⟩ : Shape).Idx → EReal) (b : Fin 128) (i : Fin 1024) :
    fused cloth body f (ix2 b i) = fusedAt cloth body f b i := rfl

end Cert.Fused

end
-- ==== Proof.BlockProduct.lean ====
/-
  What the kernel body computes from the three blocks it loads, read at one entry of the [16, 1024] block it stores.

  The body sums its [16, 64, 1024] cloth block over the middle axis, contracts its [16, 1024] body block with the whole
  [1024, 1024] matrix over the second axis of both (the two roundings to bf16 on the way into the product are the
  identity on extended reals, and the product accumulates into zero), and multiplies the two entry by entry. So at
  row `p`, channel `q` of the block the stored value is

      (∑ k < 64, x0 (p, k, q)) · (∑ j < 1024, x1 (p, j) · x2 (q, j)).
-/
import proofs.«103624_j74045236183240_2_alg».proof.Proof.Gen.KernelIdeal.Skeleton
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-- The sample sum: the lane reduction over the middle axis, at row `p`, channel `q`, is the sum over the 64 samples. -/
theorem sampleSum_apply (x0 : FVec Ideal S16x64x1024 .f32) (hφ : FKind.Formats .f32)
    (hacc : (0x00000000#32 : BitVec 32) = FKind.add.neutral .f32 hφ) (p : Fin 16) (q : Fin 1024) :
    multiReduction .add [1] S16x1024 x0 0x00000000#32 reduces_S16x64x1024_S16x1024 hφ hacc (ix2 p q)
      = ∑ k : Fin 64, x0 (ix3 p k q) := by
  refine (Ideal.multiReduction_add_single x0 0x00000000#32 reduces_S16x64x1024_S16x1024 hφ hacc (ix2 p q)).trans ?_
  refine Finset.sum_congr rfl fun k _ => ?_
  exact congrArg x0 (funext fun a => Fin.ext (by match a with | ⟨0, _⟩ => rfl | ⟨1, _⟩ => rfl | ⟨2, _⟩ => rfl))

/-- The left operand's index of the contraction: row `p` of the block, the contraction's coordinate. -/
theorem lhs_row (y : S16x1024.Idx) (r : dot_S16x1024_S1024x1024_S16x1024_1_1_0_0_n_n.contr.Idx) :
    (dot_S16x1024_S1024x1024_S16x1024_1_1_0_0_n_n.lhsIdx y r 0).val = (y 0).val := by
  unfold DotDims.lhsIdx
  rw [dif_neg (show ¬(0 : Fin S16x1024.rank) ∈ dot_S16x1024_S1024x1024_S16x1024_1_1_0_0_n_n.lhsBatch by decide),
    dif_pos (show (0 : Fin S16x1024.rank) ∈ dot_S16x1024_S1024x1024_S16x1024_1_1_0_0_n_n.lhsNonContracting by decide)]
  rfl
theorem lhs_col (y : S16x1024.Idx) (r : dot_S16x1024_S1024x1024_S16x1024_1_1_0_0_n_n.contr.Idx) :
    (dot_S16x1024_S1024x1024_S16x1024_1_1_0_0_n_n.lhsIdx y r 1).val = (r ⟨0, by decide⟩).val :=
  dot_S16x1024_S1024x1024_S16x1024_1_1_0_0_n_n.lhsIdx_val_of_single rfl y r
/-- The right operand's index: the matrix's row is the output's channel, its column the contraction's coordinate. -/
theorem rhs_row (y : S16x1024.Idx) (r : dot_S16x1024_S1024x1024_S16x1024_1_1_0_0_n_n.contr.Idx) :
    (dot_S16x1024_S1024x1024_S16x1024_1_1_0_0_n_n.rhsIdx y r 0).val = (y 1).val := by
  unfold DotDims.rhsIdx
  rw [dif_neg (show ¬(0 : Fin S1024x1024.rank) ∈ dot_S16x1024_S1024x1024_S16x1024_1_1_0_0_n_n.rhsBatch by decide),
    dif_pos (show (0 : Fin S1024x1024.rank) ∈ dot_S16x1024_S1024x1024_S16x1024_1_1_0_0_n_n.rhsNonContracting by decide)]
  rfl
theorem rhs_col (y : S16x1024.Idx) (r : dot_S16x1024_S1024x1024_S16x1024_1_1_0_0_n_n.contr.Idx) :
    (dot_S16x1024_S1024x1024_S16x1024_1_1_0_0_n_n.rhsIdx y r 1).val = (r ⟨0, by decide⟩).val :=
  dot_S16x1024_S1024x1024_S16x1024_1_1_0_0_n_n.rhsIdx_val_of_single rfl y r

/-- The contraction into a zero accumulator, at row `p`, channel `q`: the sum over `j` of `l (p, j) · r (q, j)`. -/
theorem contraction_apply (l : FVec Ideal S16x1024 .bf16) (r : FVec Ideal S1024x1024 .bf16) (p : Fin 16) (q : Fin 1024) :
    matmul dot_S16x1024_S1024x1024_S16x1024_1_1_0_0_n_n none l r (constant S16x1024 .f32 0x00000000#32) (ix2 p q)
      = ∑ j : Fin 1024, l (ix2 p j) * r (ix2 q j) := by
  refine (Ideal.matmul_constant_zero_apply dot_S16x1024_S1024x1024_S16x1024_1_1_0_0_n_n none l r (ix2 p q)).trans ?_
  rw [← Equiv.sum_comp (contrEquiv1 dot_S16x1024_S1024x1024_S16x1024_1_1_0_0_n_n 1024 rfl rfl).symm]
  refine Finset.sum_congr rfl fun j _ => ?_
  have hj := contrEquiv1_symm_val dot_S16x1024_S1024x1024_S16x1024_1_1_0_0_n_n 1024 rfl rfl j
  have el : dot_S16x1024_S1024x1024_S16x1024_1_1_0_0_n_n.lhsIdx (ix2 p q)
      ((contrEquiv1 dot_S16x1024_S1024x1024_S16x1024_1_1_0_0_n_n 1024 rfl rfl).symm j) = ix2 p j := funext fun a => Fin.ext (by
    match a with
    | ⟨0, _⟩ => exact lhs_row _ _
    | ⟨1, _⟩ => exact (lhs_col _ _).trans hj)
  have er : dot_S16x1024_S1024x1024_S16x1024_1_1_0_0_n_n.rhsIdx (ix2 p q)
      ((contrEquiv1 dot_S16x1024_S1024x1024_S16x1024_1_1_0_0_n_n 1024 rfl rfl).symm j) = ix2 q j := funext fun a => Fin.ext (by
    match a with
    | ⟨0, _⟩ => exact rhs_row _ _
    | ⟨1, _⟩ => exact (rhs_col _ _).trans hj)
  rw [el, er]

/-- THE BLOCK'S ENTRY: what the body stores at row `p`, channel `q`, as a function of the three loaded blocks. -/
theorem stored_apply (x0 : Vec Ideal S16x64x1024 .f32) (x1 : Vec Ideal S16x1024 .f32) (x2 : Vec Ideal S1024x1024 .f32)
    (p : Fin 16) (q : Fin 1024) :
    k0_pay1 (F := Ideal) x0 x1 x2 (ix2 p q) = (∑ k : Fin 64, x0 (ix3 p k q)) * ∑ j : Fin 1024, x1 (ix2 p j) * x2 (ix2 q j) := by
  unfold k0_pay1
  refine congrArg₂ (· * ·) (sampleSum_apply x0 _ _ p q) ?_
  exact contraction_apply (truncf .bf16 x1 bitsLt_bf16_f32) (truncf .bf16 x2 bitsLt_bf16_f32) p q

end Cert.KernelIdeal.Block

end
-- ==== Proof.RowBlocks.lean ====
/-
  From the blocks the kernel writes back to its whole [128, 1024] result.

  The grid has eight points. Point `t` loads rows `16 t … 16 t + 15` of the cloth latents (all 64 samples, all 1024
  channels) and of the body latents, and the whole matrix `f`; it writes back rows `16 t … 16 t + 15` of the result.
  By the block's entry (`Block.stored_apply`) what it writes at row `p`, channel `q` of its block is
  `fused cloth body f (16 t + p, q)`: the sample sum and the contraction read only row `16 t + p` of the two latents.
  The eight row blocks tile the 128 rows (row `r` lies in the block of point `r / 16`), so after the run the result
  array is `fused` of the three argument arrays.
-/
import proofs.«103624_j74045236183240_2_alg».proof.Proof.Gen.KernelIdeal.Value
import proofs.«103624_j74045236183240_2_alg».proof.Proof.FusedSpec
import proofs.«103624_j74045236183240_2_alg».proof.Proof.BlockProduct
import Idealize.ShloMosaic.Lib.Pipeline.Value
import Idealize.ShloMosaic.Lib.Tactic

noncomputable section

namespace Cert.KernelIdeal.Rows

open Cert.KernelIdeal Cert.KernelIdeal.Gen Idealize.ShloMosaic Idealize.ShloMosaic.TcCoe Idealize.SL.Sem
open Idealize.ShloMosaic.ValueIdx Cert.Fused
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The block indices at point `t`: the two latents and the result move with `t` along their rows and stay at block 0
    on every other axis; the matrix stays at its one block. Decided over the eight points. -/
theorem block_indices : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The three loaded blocks, as rows of the argument arrays -/

/-- The cloth block at point `t`, entry (p, k, q), is the cloth array at (16 t + p, k, q). -/
theorem cloth_block (c : Dev nD) (t : Fin cfg0.N) (u : S16x64x1024.Idx) (v : S128x64x1024.Idx)
    (h0 : (v 0).val = t.val * 16 + (u 0).val) (h1 : (v 1).val = (u 1).val) (h2 : (v 2).val = (u 2).val) :
    (iblk m c 0 t : Vec Ideal S16x64x1024 .f32) u = V m c main_arg0 v := by
  obtain ⟨e0, e1, e2, -⟩ := block_indices t
  unfold iblk
  rw [View.read_apply]
  show V m c main_arg0 _ = V m c main_arg0 v
  refine congrArg (V m c main_arg0) (funext fun a => Fin.ext ?_)
  match a with
  | ⟨0, _⟩ => show win0_0.index t (0 : Fin 3) * 16 + 1 * (u 0).val = (v 0).val; rw [e0, h0]; omega
  | ⟨1, _⟩ => show win0_0.index t (1 : Fin 3) * 64 + 1 * (u 1).val = (v 1).val; rw [e1, h1]; omega
  | ⟨2, _⟩ => show win0_0.index t (2 : Fin 3) * 1024 + 1 * (u 2).val = (v 2).val; rw [e2, h2]; omega

/-- The body block at point `t`, entry (p, j), is the body array at (16 t + p, j). -/
theorem body_block (c : Dev nD) (t : Fin cfg0.N) (u : S16x1024.Idx) (v : S128x1024.Idx)
    (h0 : (v 0).val = t.val * 16 + (u 0).val) (h1 : (v 1).val = (u 1).val) :
    (iblk m c 1 t : Vec Ideal S16x1024 .f32) u = V m c main_arg1 v := by
  obtain ⟨-, -, -, e0, e1, -⟩ := block_indices t
  unfold iblk
  rw [View.read_apply]
  show V m c main_arg1 _ = V m c main_arg1 v
  refine congrArg (V m c main_arg1) (funext fun a => Fin.ext ?_)
  match a with
  | ⟨0, _⟩ => show win0_1.index t (0 : Fin 2) * 16 + 1 * (u 0).val = (v 0).val; rw [e0, h0]; omega
  | ⟨1, _⟩ => show win0_1.index t (1 : Fin 2) * 1024 + 1 * (u 1).val = (v 1).val; rw [e1, h1]; omega

/-- The matrix block at every point is the whole matrix. -/
theorem matrix_block (c : Dev nD) (t : Fin cfg0.N) (u v : S1024x1024.Idx)
    (h0 : (v 0).val = (u 0).val) (h1 : (v 1).val = (u 1).val) :
    (iblk m c 2 t : Vec Ideal S1024x1024 .f32) u = V m c main_arg2 v := by
  obtain ⟨-, -, -, -, -, e0, e1, -⟩ := block_indices t
  unfold iblk
  rw [View.read_apply]
  show V m c main_arg2 _ = V m c main_arg2 v
  refine congrArg (V m c main_arg2) (funext fun a => Fin.ext ?_)
  match a with
  | ⟨0, _⟩ => show win0_2.index t (0 : Fin 2) * 1024 + 1 * (u 0).val = (v 0).val; rw [e0, h0]; omega
  | ⟨1, _⟩ => show win0_2.index t (1 : Fin 2) * 1024 + 1 * (u 1).val = (v 1).val; rw [e1, h1]; omega

/-! ## One entry of a written block is one entry of `fused` -/

/-- If three blocks are rows `16 T …` of the cloth and body arrays and the whole matrix, the body's stored value at
    (p, q) is `fused` of the arrays at (16 T + p, q): both factors read only that row. -/
theorem stored_eq_fused (a0 : S128x64x1024.Idx → EReal) (a1 : S128x1024.Idx → EReal) (a2 : S1024x1024.Idx → EReal)
    (x0 : Vec Ideal S16x64x1024 .f32) (x1 : Vec Ideal S16x1024 .f32) (x2 : Vec Ideal S1024x1024 .f32) (T : Nat)
    (hx0 : ∀ (u : S16x64x1024.Idx) (v : S128x64x1024.Idx), (v 0).val = T * 16 + (u 0).val → (v 1).val = (u 1).val →
      (v 2).val = (u 2).val → x0 u = a0 v)
    (hx1 : ∀ (u : S16x1024.Idx) (v : S128x1024.Idx), (v 0).val = T * 16 + (u 0).val → (v 1).val = (u 1).val → x1 u = a1 v)
    (hx2 : ∀ (u v : S1024x1024.Idx), (v 0).val = (u 0).val → (v 1).val = (u 1).val → x2 u = a2 v)
    (y : S16x1024.Idx) (i : S128x1024.Idx) (hi0 : (i 0).val = T * 16 + (y 0).val) (hi1 : (i 1).val = (y 1).val) :
    k0_pay1 (F := Ideal) x0 x1 x2 y = fused a0 a1 a2 i := by
  obtain ⟨p, q, rfl⟩ : ∃ (p : Fin 16) (q : Fin 1024), y = ix2 p q := ⟨y 0, y 1, eq_ix2 y⟩
  obtain ⟨b, ch, rfl⟩ : ∃ (b : Fin 128) (ch : Fin 1024), i = ix2 b ch := ⟨i 0, i 1, eq_ix2 i⟩
  rw [Block.stored_apply, fused_apply]
  unfold fusedAt
  refine congrArg₂ (· * ·) (Finset.sum_congr rfl fun k _ => hx0 _ _ hi0 rfl hi1)
    (Finset.sum_congr rfl fun j _ => congrArg₂ (· * ·) (hx1 _ _ hi0 rfl) (hx2 _ _ hi1 rfl))

/-! ## What each point writes back, the tiling, and the run -/

/-- WHAT POINT `t` WRITES BACK is block `t` of `fused` of the argument arrays. -/
theorem flushed_eq (c : Dev nD) (t : Fin cfg0.N) :
    (dats m 0 c).flushed 3 t
      = ((cfg0.win 3).blk t).view.read (Elt Ideal) (fused (V m c main_arg0) (V m c main_arg1) (V m c main_arg2)) := by
  rw [Value.flushed3]
  unfold out0_3
  rw [View.canon_unit_zero zero2]
  simp only [View.ld_unit_zero (S := S16x64x1024) zero3, View.ld_unit_zero (S := S16x1024) zero2,
    View.ld_unit_zero (S := S1024x1024) zero2]
  obtain ⟨-, -, -, -, -, -, -, e0, e1⟩ := block_indices t
  funext y
  show k0_pay1 (F := Ideal) (iblk m c 0 t) (iblk m c 1 t) (iblk m c 2 t) y
    = fused (V m c main_arg0) (V m c main_arg1) (V m c main_arg2) (((cfg0.win 3).blk t).view.emb y)
  refine stored_eq_fused _ _ _ _ _ _ t.val (fun u v => cloth_block m c t u v) (fun u v => body_block m c t u v)
    (fun u v => matrix_block m c t u v) y _ ?_ ?_
  · show win0_3.index t (0 : Fin 2) * 16 + 1 * (y 0).val = t.val * 16 + (y 0).val
    rw [e0]; omega
  · show win0_3.index t (1 : Fin 2) * 1024 + 1 * (y 1).val = (y 1).val
    rw [e1]; omega

/-- An index of the result is in point `t`'s block iff each coordinate is in the block's range on its axis. -/
theorem mem_block (t : Fin cfg0.N) (i : S128x1024.Idx) :
    i ∈ ((cfg0.win 3).blk t).view.set ↔ ∀ a : Fin 2, win0_3.index t a * S16x1024.size a ≤ (i a).val
      ∧ (i a).val < win0_3.index t a * S16x1024.size a + S16x1024.size a := by
  show i ∈ ((View.whole main_v0).slice (win0_3.rect t)).set ↔ _
  rw [View.set_slice_whole, Rect.mem_set_unit]
  exact Iff.rfl

/-- THE TILING: row `r` of the result lies in the block of point `r / 16`, and every point writes back. -/
theorem covered (i : S128x1024.Idx) :
    ∃ t : Fin cfg0.N, (cfg0.win 3).flush t = true ∧ i ∈ ((cfg0.win 3).blk t).view.set := by
  have hi0 : (i 0).val < 128 := (i 0).isLt
  have hi1 : (i 1).val < 1024 := (i 1).isLt
  have hN : cfg0.N = 8 := N_0
  have ht : (i 0).val / 16 < cfg0.N := by rw [hN]; omega
  obtain ⟨-, -, -, -, -, -, -, e0, e1⟩ := block_indices ⟨(i 0).val / 16, ht⟩
  refine ⟨⟨(i 0).val / 16, ht⟩, flush0_3 _, ?_⟩
  rw [mem_block]
  intro a
  match a with
  | ⟨0, _⟩ =>
    show win0_3.index ⟨(i 0).val / 16, ht⟩ (0 : Fin 2) * 16 ≤ (i 0).val
      ∧ (i 0).val < win0_3.index ⟨(i 0).val / 16, ht⟩ (0 : Fin 2) * 16 + 16
    rw [e0]; show (i 0).val / 16 * 16 ≤ (i 0).val ∧ (i 0).val < (i 0).val / 16 * 16 + 16; omega
  | ⟨1, _⟩ =>
    show win0_3.index ⟨(i 0).val / 16, ht⟩ (1 : Fin 2) * 1024 ≤ (i 1).val
      ∧ (i 1).val < win0_3.index ⟨(i 0).val / 16, ht⟩ (1 : Fin 2) * 1024 + 1024
    rw [e1]; omega

/-- THE RESULT ARRAY after the run is `fused` of the three argument arrays. -/
theorem final (c : Dev nD) :
    (dats m 0 c).arrAt 3 cfg0.N = fused (m ((c : Thread nD τ).loc main_arg0)) (m ((c : Thread nD τ).loc main_arg1))
      (m ((c : Thread nD τ).loc main_arg2)) :=
  (dats m 0 c).arrAt_eq_of_cover 3 (fused (V m c main_arg0) (V m c main_arg1) (V m c main_arg2))
    (fun t _ => flushed_eq m c t) covered

/-- The kernel's run, read: every weakly fair execution ends with the result array at `fused` of the arguments as
    launched, and the arguments unchanged. -/
theorem run : θ_run defs (onTc (τ := τ) (main (F := Ideal))) ⟨m, fun _ => 0, ρ⟩ fun r => ∀ c : Dev nD,
      r.2.mem ((c : Thread nD τ).loc main_v0) = fused (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Rows

end
-- ==== Proof.ReferenceFused.lean ====
/-
  The reference computes `fused`.

  Its three operations, read at row `b`, channel `i`: the sum of the cloth latents over the sample axis starting from the
  constant zero, `0 + ∑ k, cloth (b, k, i)`; the contraction of the body latents with the matrix over the second axis
  of both, `∑ j, body (b, j) · f (i, j)`; and their product. The leading zero is the extended real `0`, so the
  product is `fused cloth body f (b, i)`.
-/
import proofs.«103624_j74045236183240_2_alg».proof.Proof.Gen.ReferenceIdeal.Read
import proofs.«103624_j74045236183240_2_alg».proof.Proof.FusedSpec

noncomputable section

namespace Cert.ReferenceIdeal.Fused

open Cert.ReferenceIdeal Cert.ReferenceIdeal.Read Idealize.ShloMosaic Idealize.ShloMosaic.ValueIdx Cert.Fused

/-- The sample sum reads the cloth latents at (b, k, i). -/
theorem sample_idx (y : S128x1024.Idx) (k : Fin 64) : idx_main_v0 y k = ix3 (y 0) k (y 1) :=
  funext fun a => Fin.ext (by match a with | ⟨0, _⟩ => rfl | ⟨1, _⟩ => rfl | ⟨2, _⟩ => rfl)

/-- The contraction reads the body latents at (b, j) … -/
theorem body_idx (y : S128x1024.Idx) (j : Fin 1024) : lidx_main_v1 y j = ix2 (y 0) j :=
  funext fun a => Fin.ext (by match a with | ⟨0, _⟩ => rfl | ⟨1, _⟩ => rfl)

/-- … and the matrix at (i, j). -/
theorem matrix_idx (y : S128x1024.Idx) (j : Fin 1024) : ridx_main_v1 y j = ix2 (y 1) j :=
  funext fun a => Fin.ext (by match a with | ⟨0, _⟩ => rfl | ⟨1, _⟩ => rfl)

/-- THE REFERENCE'S RESULT, as a function of the three argument arrays, is `fused` of them. -/
theorem result_eq (cloth : (⟨S128x64x1024, .f32⟩ : BufTy).Contents (Elt Ideal)) (body : (⟨S128x1024, .f32⟩ : BufTy).Contents (Elt Ideal))
    (f : (⟨S1024x1024, .f32⟩ : BufTy).Contents (Elt Ideal)) :
    val_main_v2 (F := Ideal) cloth body f = fused cloth body f := by
  funext y
  rw [val_main_v2_apply, val_main_v0_apply, val_main_v1_apply, val_main_cst_apply]
  show (Ideal.ofBits .f32 0x00000000#32 + ∑ k : Fin 64, cloth (idx_main_v0 y k)) * (∑ j : Fin 1024, body (lidx_main_v1 y j) * f (ridx_main_v1 y j))
      = (∑ k : Fin 64, cloth (ix3 (y 0) k (y 1))) * ∑ j : Fin 1024, body (ix2 (y 0) j) * f (ix2 (y 1) j)
  rw [Ideal.ofBits_zero_f32, zero_add]
  exact congrArg₂ (· * ·) (Finset.sum_congr rfl fun k _ => congrArg cloth (sample_idx y k))
    (Finset.sum_congr rfl fun j _ => congrArg₂ (· * ·) (congrArg body (body_idx y j)) (congrArg f (matrix_idx y j)))

end Cert.ReferenceIdeal.Fused

end
-- ==== Proof.lean ====
/-
  The fused cloth–body product: a Pallas kernel against its jnp reference, equal on the extended reals.

  Both programs take cloth latents `cloth : [128, 64, 1024]`, body latents `body : [128, 1024]` and a matrix
  `f : [1024, 1024]`, and return the [128, 1024] array

      out (b, i) = (∑ k < 64, cloth (b, k, i)) · (∑ j < 1024, body (b, j) · f (i, j))        (`Cert.Fused.fused`).

  The reference does it in three whole-array operations (a sum over the sample axis from a zero constant, a contraction
  of `body` with `f` over the second axis of both, a product); read index by index they are `fused`
  (`Cert.ReferenceIdeal.Fused.result_eq`; the leading zero is the extended real 0).

  The kernel walks eight row blocks of sixteen rows. At each it sums its cloth block over the sample axis, rounds its
  body block and the matrix to bf16 — the identity on extended reals —, contracts them into a zero accumulator, and
  stores the product of the two (`Cert.KernelIdeal.Block.stored_apply`). Row `p` of block `t` is row `16 t + p` of
  the arrays, both factors read that row only, so each point writes back its block of `fused`; the blocks tile the
  rows, and the result array ends at `fused` of the arguments (`Cert.KernelIdeal.Rows.run`).

  The two sides are then the same term: a product of two finite sums over the same index sets with the same summands.
  No law that could fail at an infinity (distributivity, cancellation) is used, so the precondition that the inputs
  are finite is never opened. The idealization rewrote no operation of the kernel, so there is nothing to preserve;
  the three frames are the generated frame runs (the reference's is its run with the result dropped).
-/
import proofs.«103624_j74045236183240_2_alg».proof.Defs
import proofs.«103624_j74045236183240_2_alg».proof.Proof.Gen.Kernel
import proofs.«103624_j74045236183240_2_alg».proof.Proof.Gen.Kernel.Skeleton
import proofs.«103624_j74045236183240_2_alg».proof.Proof.Gen.Kernel.Launch
import proofs.«103624_j74045236183240_2_alg».proof.Proof.Gen.Kernel.Points
import proofs.«103624_j74045236183240_2_alg».proof.Proof.Gen.Kernel.Frame
import proofs.«103624_j74045236183240_2_alg».proof.Proof.Gen.KernelIdeal
import proofs.«103624_j74045236183240_2_alg».proof.Proof.Gen.KernelIdeal.Skeleton
import proofs.«103624_j74045236183240_2_alg».proof.Proof.Gen.KernelIdeal.Launch
import proofs.«103624_j74045236183240_2_alg».proof.Proof.Gen.KernelIdeal.Points
import proofs.«103624_j74045236183240_2_alg».proof.Proof.Gen.KernelIdeal.Frame
import proofs.«103624_j74045236183240_2_alg».proof.Proof.Gen.ReferenceIdeal
import proofs.«103624_j74045236183240_2_alg».proof.Proof.Gen.Pre_finite_inputs
import proofs.«103624_j74045236183240_2_alg».proof.Proof.Gen.KernelIdeal.Value
import proofs.«103624_j74045236183240_2_alg».proof.Proof.Gen.ReferenceIdeal.Run
import proofs.«103624_j74045236183240_2_alg».proof.Proof.Gen.ReferenceIdeal.Read
import proofs.«103624_j74045236183240_2_alg».proof.Proof.RowBlocks
import proofs.«103624_j74045236183240_2_alg».proof.Proof.ReferenceFused
import Idealize.ShloMosaic.Adequacy
import Idealize.ShloMosaic.Init

noncomputable section

namespace Cert.Proof

open Idealize.ShloMosaic Idealize.ShloMosaic.TcCoe Idealize.SL.Sem

/-- The kernel as printed runs to the end without a fault and leaves its three arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation of the kernel. -/
theorem preserves : Cert.preserves_Kernel_KernelIdeal := trivial

/-- From memories that agree on the three arguments, the kernel's result array ends at `fused` of its arguments and the
    reference's at its three operations of its own, which are `fused` of the same arrays. -/
theorem algebraic : Cert.algebraic_KernelIdeal_ReferenceIdeal := by
  intro m ρ m' ρ' _ hagree
  refine ⟨fun c => Cert.Fused.fused (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Fused.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
